-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10000 : Shape := ⟨2, ![4096, 10000]⟩
abbrev S128x10000 : Shape := ⟨2, ![128, 10000]⟩
abbrev S_ : Shape := ⟨0, ![]⟩

class Facts : Prop where
  bcast_S_S4096x10000 : S_.BroadcastsInDim S4096x10000 (![] : Fin 0 → Fin S4096x10000.rank)
  reducesTo_S4096x10000_S_d0_1 : S4096x10000.ReducesTo [0, 1] S_
  h_S_ : 0 < S_.numel
  bcast_S_S128x10000 : S_.BroadcastsInDim S128x10000 (![] : Fin 0 → Fin S128x10000.rank)
  reducesTo_S128x10000_S_d0_1 : S128x10000.ReducesTo [0, 1] S_

variable [Facts]

def fn_part1 {F : FTy → Type} [FloatOps F] (main_arg4 : FVec F S128x10000 .f32) (main_v13 : IVec S_ 1) (main_v16 : IVec S128x10000 1) : IVec S_ 1 :=
  let main_c_5 : IVec S_ 1 := constantI S_ 1 1#1
  let main_v17 : IVec S_ 1 := (fun x v => Host.reduce IntOp.andi x v reducesTo_S128x10000_S_d0_1 h_S_) main_v16 main_c_5
  let main_v18 : IVec S_ 1 := andi main_v13 main_v17
  let main_v19 : FVec F S128x10000 .f32 := Host.absf main_arg4
  let main_cst_6 : FVec F S_ .f32 := constant S_ .f32 0x7F800000#32
  let main_v20 : FVec F S128x10000 .f32 := broadcastInDim S128x10000 ![] bcast_S_S128x10000 main_cst_6
  let main_v21 : IVec S128x10000 1 := cmpf .olt main_v19 main_v20
  let main_c_7 : IVec S_ 1 := constantI S_ 1 1#1
  let main_v22 : IVec S_ 1 := (fun x v => Host.reduce IntOp.andi x v reducesTo_S128x10000_S_d0_1 h_S_) main_v21 main_c_7
  let main_v23 : IVec S_ 1 := andi main_v18 main_v22
  main_v23

def fn {F : FTy → Type} [FloatOps F] (main_arg0 : FVec F S4096x10000 .f32) (main_arg1 : FVec F S4096x10000 .f32) (main_arg2 : FVec F S4096x10000 .f32) (main_arg3 : FVec F S128x10000 .f32) (main_arg4 : FVec F S128x10000 .f32) : IVec S_ 1 :=
  let main_v0 : FVec F S4096x10000 .f32 := Host.absf main_arg0
  let main_cst : FVec F S_ .f32 := constant S_ .f32 0x7F800000#32
  let main_v1 : FVec F S4096x10000 .f32 := broadcastInDim S4096x10000 ![] bcast_S_S4096x10000 main_cst
  let main_v2 : IVec S4096x10000 1 := cmpf .olt main_v0 main_v1
  let main_c : IVec S_ 1 := constantI S_ 1 1#1
  let main_v3 : IVec S_ 1 := (fun x v => Host.reduce IntOp.andi x v reducesTo_S4096x10000_S_d0_1 h_S_) main_v2 main_c
  let main_v4 : FVec F S4096x10000 .f32 := Host.absf main_arg1
  let main_cst_0 : FVec F S_ .f32 := constant S_ .f32 0x7F800000#32
  let main_v5 : FVec F S4096x10000 .f32 := broadcastInDim S4096x10000 ![] bcast_S_S4096x10000 main_cst_0
  let main_v6 : IVec S4096x10000 1 := cmpf .olt main_v4 main_v5
  let main_c_1 : IVec S_ 1 := constantI S_ 1 1#1
  let main_v7 : IVec S_ 1 := (fun x v => Host.reduce IntOp.andi x v reducesTo_S4096x10000_S_d0_1 h_S_) main_v6 main_c_1
  let main_v8 : IVec S_ 1 := andi main_v3 main_v7
  let main_v9 : FVec F S4096x10000 .f32 := Host.absf main_arg2
  let main_cst_2 : FVec F S_ .f32 := constant S_ .f32 0x7F800000#32
  let main_v10 : FVec F S4096x10000 .f32 := broadcastInDim S4096x10000 ![] bcast_S_S4096x10000 main_cst_2
  let main_v11 : IVec S4096x10000 1 := cmpf .olt main_v9 main_v10
  let main_c_3 : IVec S_ 1 := constantI S_ 1 1#1
  let main_v12 : IVec S_ 1 := (fun x v => Host.reduce IntOp.andi x v reducesTo_S4096x10000_S_d0_1 h_S_) main_v11 main_c_3
  let main_v13 : IVec S_ 1 := andi main_v8 main_v12
  let main_v14 : FVec F S128x10000 .f32 := Host.absf main_arg3
  let main_cst_4 : FVec F S_ .f32 := constant S_ .f32 0x7F800000#32
  let main_v15 : FVec F S128x10000 .f32 := broadcastInDim S128x10000 ![] bcast_S_S128x10000 main_cst_4
  let main_v16 : IVec S128x10000 1 := cmpf .olt main_v14 main_v15
  fn_part1 (F := F) main_arg4 main_v13 main_v16
-- ==== Kernel.lean ====
abbrev S4096x10000 : Shape := ⟨2, ![4096, 10000]⟩
abbrev S128x10000 : Shape := ⟨2, ![128, 10000]⟩
abbrev S10000x128 : Shape := ⟨2, ![10000, 128]⟩
abbrev S4096x1 : Shape := ⟨2, ![4096, 1]⟩
abbrev S64x10000 : Shape := ⟨2, ![64, 10000]⟩
abbrev S64x1 : Shape := ⟨2, ![64, 1]⟩
abbrev S64x128 : Shape := ⟨2, ![64, 128]⟩
abbrev S64 : Shape := ⟨1, ![64]⟩
abbrev S4096 : Shape := ⟨1, ![4096]⟩
abbrev S_ : Shape := ⟨0, ![]⟩

abbrev nBuf : Space → Nat
  | .hbm => 22
  | .vmem => 12
  | .smem => 0
  | _ => 0

abbrev bufTy : (tb : Table) → Fin (tcTables nBuf tb) → BufTy
  | .hbm, ⟨0, _⟩ => ⟨S4096x10000, .f32⟩
  | .hbm, ⟨1, _⟩ => ⟨S4096x10000, .f32⟩
  | .hbm, ⟨2, _⟩ => ⟨S4096x10000, .f32⟩
  | .hbm, ⟨3, _⟩ => ⟨S128x10000, .f32⟩
  | .hbm, ⟨4, _⟩ => ⟨S128x10000, .f32⟩
  | .hbm, ⟨5, _⟩ => ⟨S10000x128, .f32⟩
  | .hbm, ⟨6, _⟩ => ⟨S10000x128, .bf16⟩
  | .hbm, ⟨7, _⟩ => ⟨S10000x128, .f32⟩
  | .hbm, ⟨8, _⟩ => ⟨S10000x128, .bf16⟩
  | .hbm, ⟨9, _⟩ => ⟨S4096x1, .f32⟩
  | .hbm, ⟨10, _⟩ => ⟨S4096x1, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .local _ .vmem, ⟨0, _⟩ => ⟨S64x10000, .f32⟩
  | .local _ .vmem, ⟨1, _⟩ => ⟨S64x10000, .f32⟩
  | .local _ .vmem, ⟨2, _⟩ => ⟨S64x10000, .f32⟩
  | .local _ .vmem, ⟨3, _⟩ => ⟨S64x10000, .f32⟩
  | .local _ .vmem, ⟨4, _⟩ => ⟨S64x10000, .f32⟩
  | .local _ .vmem, ⟨5, _⟩ => ⟨S64x10000, .f32⟩
  | .local _ .vmem, ⟨6, _⟩ => ⟨S10000x128, .bf16⟩
  | .local _ .vmem, ⟨7, _⟩ => ⟨S10000x128, .bf16⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x1, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x10000_S10000x128_1_0 : S128x10000.Transposes [1, 0] S10000x128
  bitsLt_bf16_f32 : FTy.bits .bf16 < FTy.bits .f32
  inb_S64x10000_S64x10000_0_0 : ∀ a, (![0, 0] : Fin 2 → Nat) a + S64x10000.size a ≤ S64x10000.size a
  h_S64x10000 : 0 < S64x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S64x128_S64 : S64x128.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  dot_S64x10000_S10000x128_S64x128_1_0_0_1_n_n_wf : DotDims.WF S64x10000 S10000x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x10000.size a ≤ S4096x10000.size a
  hwx0_0 : ∀ i : grid0.Coords, EltTy.bits .f32 = 32 ∨ (Rect.block (s := S4096x10000) S64x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x10000.size a ≤ S4096x10000.size a
  hwx0_1 : ∀ i : grid0.Coords, EltTy.bits .f32 = 32 ∨ (Rect.block (s := S4096x10000) S64x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x10000.size a ≤ S4096x10000.size a
  hwx0_2 : ∀ i : grid0.Coords, EltTy.bits .f32 = 32 ∨ (Rect.block (s := S4096x10000) S64x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .bf16 = 32 ∨ (Rect.block (s := S10000x128) S10000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S10000x128.size a
  hwx0_4 : ∀ i : grid0.Coords, EltTy.bits .bf16 = 32 ∨ (Rect.block (s := S10000x128) S10000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S4096x1.size a
  hwx0_5 : ∀ i : grid0.Coords, EltTy.bits .f32 = 32 ∨ (Rect.block (s := S4096x1) S64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S4096x1.size a
  hwx0_6 : ∀ i : grid0.Coords, EltTy.bits .f32 = 32 ∨ (Rect.block (s := S4096x1) S64x1.size (cc0_transform_6 i) (hinb0_6 i)).WholeWords (EltTy.packing .f32)

variable [Facts₀]

def dot_S64x10000_S10000x128_S64x128_1_0_0_1_n_n : DotDims S64x10000 S10000x128 S64x128 where
  lhsContracting := [1]
  rhsContracting := [0]
  lhsNonContracting := [0]
  rhsNonContracting := [1]
  lhsBatch := []
  rhsBatch := []
  wf := dot_S64x10000_S10000x128_S64x128_1_0_0_1_n_n_wf

abbrev win0_0 : Pipeline.Window sig grid0 :=
  Pipeline.Window.ofSpec (Memref.whole main_arg0) S64x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S10000x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S64x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x10000 : Shape := ⟨2, ![4096, 10000]⟩
abbrev S128x10000 : Shape := ⟨2, ![128, 10000]⟩
abbrev S10000x128 : Shape := ⟨2, ![10000, 128]⟩
abbrev S4096x128 : Shape := ⟨2, ![4096, 128]⟩
abbrev S_ : Shape := ⟨0, ![]⟩
abbrev S4096 : Shape := ⟨1, ![4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S4096x10000, .f32⟩
  | .hbm, ⟨2, _⟩ => ⟨S4096x10000, .f32⟩
  | .hbm, ⟨3, _⟩ => ⟨S128x10000, .f32⟩
  | .hbm, ⟨4, _⟩ => ⟨S128x10000, .f32⟩
  | .hbm, ⟨5, _⟩ => ⟨S10000x128, .f32⟩
  | .hbm, ⟨6, _⟩ => ⟨S4096x128, .f32⟩
  | .hbm, ⟨7, _⟩ => ⟨S10000x128, .f32⟩
  | .hbm, ⟨8, _⟩ => ⟨S4096x128, .f32⟩
  | .hbm, ⟨9, _⟩ => ⟨S10000x128, .f32⟩
  | .hbm, ⟨10, _⟩ => ⟨S4096x128, .f32⟩
  | .hbm, ⟨11, _⟩ => ⟨S4096x128, .f32⟩
  | .hbm, ⟨12, _⟩ => ⟨S_, .f32⟩
  | .hbm, ⟨13, _⟩ => ⟨S4096, .f32⟩
  | .hbm, ⟨14, _⟩ => ⟨S4096x128, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  transposes_S128x10000_S10000x128_1_0 : S128x10000.Transposes [1, 0] S10000x128
  reducesTo_S4096x128_S4096_d1 : S4096x128.ReducesTo [1] S4096
  h_S_ : 0 < S_.numel
  bcast_S_S4096 : S_.BroadcastsInDim S4096 (![] : Fin 0 → Fin S4096.rank)
  reducesTo_S4096_S_d0 : S4096.ReducesTo [0] S_
  dot_S4096x10000_S10000x128_S4096x128_1_0_0_1_n_n_wf : DotDims.WF S4096x10000 S10000x128 S4096x128 [1] [0] [0] [1] [] []

variable [Facts₀]

def dot_S4096x10000_S10000x128_S4096x128_1_0_0_1_n_n : DotDims S4096x10000 S10000x128 S4096x128 where
  lhsContracting := [1]
  rhsContracting := [0]
  lhsNonContracting := [0]
  rhsNonContracting := [1]
  lhsBatch := []
  rhsBatch := []
  wf := dot_S4096x10000_S10000x128_S4096x128_1_0_0_1_n_n_wf

class Facts : Prop extends Facts₀ where

variable [Facts]
-- ==== Proof.Spec.lean ====
/-
  The mathematics both programs compute, stated once over the argument arrays and free of either program.

  For a batch `x : [4096, 10000]` and an embedding table `e : [128, 10000]` the representation of row `n` is
  `proj x e n d = Σ_k x[n,k] · e[d,k]` (the batch times the table's transpose). The score of a pair of batches
  `x, y` under tables `ec, er` at row `n` is the inner product of the two rows' representations,
  `score x y ec er n = Σ_d proj x ec n d · proj y er n d`. The loss is the hinge
  `Σ_n max (f_neg n − f_pos n + 1/2, 0)` over the two score vectors; it is one composition of elementwise host
  operations and one sum, the same on both sides, so it is kept as that composition (`hinge`) and never opened.
-/
import Idealize.ShloMosaic.PureOps.Ideal
import Idealize.ShloMosaic.PureOps.Ideal.Laws
import Idealize.ShloMosaic.Lib.ValueIdx

noncomputable section

namespace Cert.PairScore

open Idealize.ShloMosaic Idealize.ShloMosaic.ValueIdx

/-- A batch of 4096 rows over a vocabulary of 10000, as extended reals. -/
abbrev Batch := (⟨2, ![4096, 10000]⟩ : Shape).Idx → EReal
/-- An embedding table: 128 features over the vocabulary of 10000. -/
abbrev Embedding := (⟨2, ![128, 10000]⟩ : Shape).Idx → EReal
/-- One number per row of the batch. -/
abbrev Scores := (⟨1, ![4096]⟩ : Shape).Idx → EReal

/-- Row `n` of the batch against feature `d` of the table: `Σ_k x[n,k] · e[d,k]`. -/
def proj (x : Batch) (e : Embedding) (n : Fin 4096) (d : Fin 128) : EReal :=
  ∑ k : Fin 10000, x (ix2 n k) * e (ix2 d k)

/-- The inner product over the 128 features of row `n`'s two representations. -/
def score (x y : Batch) (ec er : Embedding) (n : Fin 4096) : EReal :=
  ∑ d : Fin 128, proj x ec n d * proj y er n d

/-- The score vector: `score` at each row. -/
def scores (x y : Batch) (ec er : Embedding) : Scores := fun j => score x y ec er (j 0)

/-- The hinge loss of two score vectors, `Σ_n max (f_neg n − f_pos n + 1/2, 0)` summed from `0`, as the composition of
    host operations both programs end with: a subtraction, the broadcast constant `1/2` added, the maximum with the
    broadcast `0`, and the sum over the rows. The three shape facts are arguments, so that either program's own
    witnesses of them fit. -/
def hinge (hb : (⟨0, ![]⟩ : Shape).BroadcastsInDim ⟨1, ![4096]⟩ (![] : Fin 0 → Fin 1))
    (hr : (⟨1, ![4096]⟩ : Shape).ReducesTo [0] ⟨0, ![]⟩) (hs : 0 < (⟨0, ![]⟩ : Shape).numel)
    (fpos fneg : FVec Ideal ⟨1, ![4096]⟩ .f32) : FVec Ideal ⟨0, ![]⟩ .f32 :=
  Host.reduceAdd
    (maximumf
      (addf (subf fneg fpos) (broadcastInDim ⟨1, ![4096]⟩ ![] hb (constant (F := Ideal) ⟨0, ![]⟩ .f32 0x3F000000#32)))
      (broadcastInDim ⟨1, ![4096]⟩ ![] hb (constant (F := Ideal) ⟨0, ![]⟩ .f32 0x00000000#32)))
    (constant (F := Ideal) ⟨0, ![]⟩ .f32 0x00000000#32) hr hs

end Cert.PairScore

end
-- ==== Proof.RefScore.lean ====
/-
  The reference's two score vectors are the specification's.

  The reference transposes each table, multiplies each batch by the transposed table, multiplies two such products
  entry by entry and sums over the 128 features from `0`. Read at an index: an entry `(n, d)` of a product is
  `Σ_k x[n,k] · e[d,k]` (the transposed table read at `(k, d)` is the table at `(d, k)`), and the sum from the zero word
  adds nothing in front. That is `score`.
-/
import proofs.«116260_j89034672046590_2_alg».proof.Proof.Gen.ReferenceIdeal.Read
import proofs.«116260_j89034672046590_2_alg».proof.Proof.Spec

noncomputable section

namespace Cert.ReferenceIdeal.RefScore

open Idealize.ShloMosaic Idealize.ShloMosaic.ValueIdx Cert.ReferenceIdeal Cert.ReferenceIdeal.Read Cert.PairScore

/-- The context batch times the transposed context table: entry `(n, d)` is row `n` against feature `d`. -/
theorem context_apply (x : FVec Ideal S4096x10000 .f32) (e : FVec Ideal S128x10000 .f32) (i : S4096x128.Idx) :
    val_main_v1 (F := Ideal) x e i = proj x e (i 0) (i 1) := by
  rw [val_main_v1_apply]
  unfold proj
  refine Finset.sum_congr rfl fun k _ => ?_
  rw [val_main_v0_apply]
  exact congrArg₂ (· * ·)
    (congrArg x (funext fun a => Fin.ext (by match a with | ⟨0, _⟩ => rfl | ⟨1, _⟩ => rfl)))
    (congrArg e (funext fun a => Fin.ext (by match a with | ⟨0, _⟩ => rfl | ⟨1, _⟩ => rfl)))

/-- The response batch times the transposed response table. -/
theorem response_apply (x : FVec Ideal S4096x10000 .f32) (e : FVec Ideal S128x10000 .f32) (i : S4096x128.Idx) :
    val_main_v3 (F := Ideal) x e i = proj x e (i 0) (i 1) := by
  rw [val_main_v3_apply]
  unfold proj
  refine Finset.sum_congr rfl fun k _ => ?_
  rw [val_main_v2_apply]
  exact congrArg₂ (· * ·)
    (congrArg x (funext fun a => Fin.ext (by match a with | ⟨0, _⟩ => rfl | ⟨1, _⟩ => rfl)))
    (congrArg e (funext fun a => Fin.ext (by match a with | ⟨0, _⟩ => rfl | ⟨1, _⟩ => rfl)))

/-- The negative-response batch times the transposed response table. -/
theorem negative_apply (x : FVec Ideal S4096x10000 .f32) (e : FVec Ideal S128x10000 .f32) (i : S4096x128.Idx) :
    val_main_v5 (F := Ideal) x e i = proj x e (i 0) (i 1) := by
  rw [val_main_v5_apply]
  unfold proj
  refine Finset.sum_congr rfl fun k _ => ?_
  rw [val_main_v4_apply]
  exact congrArg₂ (· * ·)
    (congrArg x (funext fun a => Fin.ext (by match a with | ⟨0, _⟩ => rfl | ⟨1, _⟩ => rfl)))
    (congrArg e (funext fun a => Fin.ext (by match a with | ⟨0, _⟩ => rfl | ⟨1, _⟩ => rfl)))

/-- The positive scores: the sum over the features, from the zero word, of the context and response products. -/
theorem pos_eq (x0 x1 : FVec Ideal S4096x10000 .f32) (x3 x4 : FVec Ideal S128x10000 .f32) :
    val_main_v7 (F := Ideal) x0 x1 x3 x4 = scores x0 x1 x3 x4 := by
  funext i
  rw [val_main_v7_apply]
  show Ideal.ofBits .f32 0x00000000#32 + _ = _
  rw [Ideal.ofBits_zero_f32, zero_add]
  unfold scores score
  refine Finset.sum_congr rfl fun d _ => ?_
  rw [val_main_v6_apply, context_apply, response_apply]
  rfl

/-- The negative scores: the same with the negative-response product. -/
theorem neg_eq (x0 x2 : FVec Ideal S4096x10000 .f32) (x3 x4 : FVec Ideal S128x10000 .f32) :
    val_main_v9 (F := Ideal) x0 x2 x3 x4 = scores x0 x2 x3 x4 := by
  funext i
  rw [val_main_v9_apply]
  show Ideal.ofBits .f32 0x00000000#32 + _ = _
  rw [Ideal.ofBits_zero_f32, zero_add]
  unfold scores score
  refine Finset.sum_congr rfl fun d _ => ?_
  rw [val_main_v8_apply, context_apply, negative_apply]
  rfl

end Cert.ReferenceIdeal.RefScore

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.BlockScore.lean ====
/-
  What the kernel body stores, read at a row of the block.

  At one grid point the body holds three blocks of 64 batch rows (`[64, 10000]`) and the two whole tables, already
  transposed to `[10000, 128]`. It forms three block products on the matrix unit, each into a zero accumulator,
  multiplies two of them entry by entry, and sums the 128 lanes of each row; the row sums are stored as a column
  `[64, 1]`. Over the extended reals a change of float format is the identity, a product into the zero accumulator
  is the plain sum over the contraction index, and a lane sum from the zero word is the plain sum over the lanes. So
  the stored column holds, in row `p`,
      Σ_d (Σ_k x[p,k] · ec[k,d]) · (Σ_k y[p,k] · er[k,d]),
  with `x, y` the two batch blocks the store pairs and `ec, er` the transposed tables.
-/
import proofs.«116260_j89034672046590_2_alg».proof.Proof.Gen.KernelIdeal.Skeleton
import proofs.«116260_j89034672046590_2_alg».proof.Proof.LibRowLayout
import proofs.«116260_j89034672046590_2_alg».proof.Proof.Spec
import Idealize.ShloMosaic.Lib.ValueIdx
import Idealize.ShloMosaic.Lib.Pipeline.Value
import Idealize.ShloMosaic.PureOps.Ideal.Laws

noncomputable section

namespace Cert.KernelIdeal.BlockScore

open Idealize.ShloMosaic Idealize.ShloMosaic.ValueIdx Cert.KernelIdeal Cert.KernelIdeal.Gen

/-! ## The block product's operand indices -/

/-- The left operand of the block product at output `(r, c)` and contraction index `q` is read in row `r`. -/
theorem lhs_row (i : S64x128.Idx) (q : dot_S64x10000_S10000x128_S64x128_1_0_0_1_n_n.contr.Idx) :
    (dot_S64x10000_S10000x128_S64x128_1_0_0_1_n_n.lhsIdx i q 0).val = (i 0).val := by
  unfold DotDims.lhsIdx
  rw [dif_neg (show ¬(0 : Fin S64x10000.rank) ∈ dot_S64x10000_S10000x128_S64x128_1_0_0_1_n_n.lhsBatch by decide), dif_pos (show (0 : Fin S64x10000.rank) ∈ dot_S64x10000_S10000x128_S64x128_1_0_0_1_n_n.lhsNonContracting by decide)]
  rfl
/-- and at the contraction index's column; -/
theorem lhs_col (i : S64x128.Idx) (q : dot_S64x10000_S10000x128_S64x128_1_0_0_1_n_n.contr.Idx) :
    (dot_S64x10000_S10000x128_S64x128_1_0_0_1_n_n.lhsIdx i q 1).val = (q ⟨0, by decide⟩).val :=
  dot_S64x10000_S10000x128_S64x128_1_0_0_1_n_n.lhsIdx_val_of_single rfl i q
/-- the right operand in the contraction index's row -/
theorem rhs_row (i : S64x128.Idx) (q : dot_S64x10000_S10000x128_S64x128_1_0_0_1_n_n.contr.Idx) :
    (dot_S64x10000_S10000x128_S64x128_1_0_0_1_n_n.rhsIdx i q 0).val = (q ⟨0, by decide⟩).val :=
  dot_S64x10000_S10000x128_S64x128_1_0_0_1_n_n.rhsIdx_val_of_single rfl i q
/-- and in column `c`. -/
theorem rhs_col (i : S64x128.Idx) (q : dot_S64x10000_S10000x128_S64x128_1_0_0_1_n_n.contr.Idx) :
    (dot_S64x10000_S10000x128_S64x128_1_0_0_1_n_n.rhsIdx i q 1).val = (i 1).val := by
  unfold DotDims.rhsIdx
  rw [dif_neg (show ¬(1 : Fin S10000x128.rank) ∈ dot_S64x10000_S10000x128_S64x128_1_0_0_1_n_n.rhsBatch by decide), dif_pos (show (1 : Fin S10000x128.rank) ∈ dot_S64x10000_S10000x128_S64x128_1_0_0_1_n_n.rhsNonContracting by decide)]
  rfl

/-! ## A block product at an entry -/

/-- A batch block, its format narrowed (the identity here), times a transposed table into the zero accumulator:
    entry `(p, d)` is `Σ_k x[p,k] · e[k,d]`. -/
theorem product_apply (x : FVec Ideal S64x10000 .f32) (e : FVec Ideal S10000x128 .bf16) (p : Fin 64) (d : Fin 128) :
    matmul dot_S64x10000_S10000x128_S64x128_1_0_0_1_n_n none (truncf .bf16 x bitsLt_bf16_f32) e
        (constant (F := Ideal) S64x128 .f32 0x00000000#32) (ix2 p d)
      = ∑ k : Fin 10000, x (ix2 p k) * e (ix2 k d) := by
  simp only [matmul]
  rw [Ideal.matmul_constant_zero_apply, ← Equiv.sum_comp (contrEquiv1 dot_S64x10000_S10000x128_S64x128_1_0_0_1_n_n 10000 rfl rfl).symm]
  refine Finset.sum_congr rfl fun k _ => ?_
  have hk := contrEquiv1_symm_val dot_S64x10000_S10000x128_S64x128_1_0_0_1_n_n 10000 rfl rfl k
  have el : dot_S64x10000_S10000x128_S64x128_1_0_0_1_n_n.lhsIdx (ix2 p d) ((contrEquiv1 dot_S64x10000_S10000x128_S64x128_1_0_0_1_n_n 10000 rfl rfl).symm k) = ix2 p k := funext fun a => Fin.ext (by
    match a with
    | ⟨0, _⟩ => exact lhs_row _ _
    | ⟨1, _⟩ => exact (lhs_col _ _).trans hk)
  have er : dot_S64x10000_S10000x128_S64x128_1_0_0_1_n_n.rhsIdx (ix2 p d) ((contrEquiv1 dot_S64x10000_S10000x128_S64x128_1_0_0_1_n_n 10000 rfl rfl).symm k) = ix2 k d := funext fun a => Fin.ext (by
    match a with
    | ⟨0, _⟩ => exact (rhs_row _ _).trans hk
    | ⟨1, _⟩ => exact rhs_col _ _)
  rw [el, er]
  rfl

/-! ## The two stored columns -/

/-- The first store: row `p` of the column holds the inner product, over the 128 features, of row `p`'s
    representation under the first table and the paired block's row under the second. -/
theorem pos_apply (x y : FVec Ideal S64x10000 .f32) (ec er : FVec Ideal S10000x128 .bf16) (p : Fin 64) :
    k0_pay3 (F := Ideal) x y ec er (ix2 p (0 : Fin 1))
      = ∑ d : Fin 128, (∑ k : Fin 10000, x (ix2 p k) * ec (ix2 k d)) * (∑ k : Fin 10000, y (ix2 p k) * er (ix2 k d)) := by
  unfold k0_pay3 k0_pay2 k0_pay1
  dsimp only
  refine (Cert.RowLayout.castCol_apply _ _ p).trans ?_
  refine (Cert.RowLayout.laneSum_apply _ _ _ _ p).trans ?_
  refine Finset.sum_congr rfl fun d _ => ?_
  rw [shapeCast_self, shapeCast_self]
  exact congrArg₂ (· * ·) (product_apply x ec p d) (product_apply y er p d)

/-- The second store: the same with the third batch block in the second factor. -/
theorem neg_apply (x z : FVec Ideal S64x10000 .f32) (ec er : FVec Ideal S10000x128 .bf16) (p : Fin 64) :
    k0_pay4 (F := Ideal) x z ec er (ix2 p (0 : Fin 1))
      = ∑ d : Fin 128, (∑ k : Fin 10000, x (ix2 p k) * ec (ix2 k d)) * (∑ k : Fin 10000, z (ix2 p k) * er (ix2 k d)) := by
  unfold k0_pay4 k0_pay2 k0_pay1
  dsimp only
  refine (Cert.RowLayout.castCol_apply _ _ p).trans ?_
  refine (Cert.RowLayout.laneSum_apply _ _ _ _ p).trans ?_
  refine Finset.sum_congr rfl fun d _ => ?_
  rw [shapeCast_self, shapeCast_self]
  exact congrArg₂ (· * ·) (product_apply x ec p d) (product_apply z er p d)

/-! ## The stored columns against the specification

When the block rows are rows of whole batches (`hx`, `hy`: row `j 0` of the block is row `n` of the batch) and the
transposed tables are tables read with their coordinates exchanged (`hec`, `her`), the stored entry is the
specification's score of row `n`. Stated over plain vectors, to be used at a grid point's blocks. -/

open Cert.PairScore in
theorem pos_row (x y : FVec Ideal S64x10000 .f32) (ec er : FVec Ideal S10000x128 .bf16) (X Y : Batch) (Ec Er : Embedding)
    (n : Fin 4096) (j : S64x1.Idx)
    (hx : ∀ k : Fin 10000, x (ix2 (j 0) k) = X (ix2 n k)) (hy : ∀ k : Fin 10000, y (ix2 (j 0) k) = Y (ix2 n k))
    (hec : ∀ (k : Fin 10000) (d : Fin 128), ec (ix2 k d) = Ec (ix2 d k))
    (her : ∀ (k : Fin 10000) (d : Fin 128), er (ix2 k d) = Er (ix2 d k)) :
    k0_pay3 (F := Ideal) x y ec er j = score X Y Ec Er n := by
  obtain ⟨p, q, rfl⟩ : ∃ (p : Fin 64) (q : Fin 1), j = ix2 p q := ⟨j 0, j 1, eq_ix2 j⟩
  obtain rfl : q = 0 := Fin.fin_one_eq_zero q
  have hx' : ∀ k : Fin 10000, x (ix2 p k) = X (ix2 n k) := hx
  have hy' : ∀ k : Fin 10000, y (ix2 p k) = Y (ix2 n k) := hy
  rw [pos_apply]
  unfold score proj
  simp only [hx', hy', hec, her]

open Cert.PairScore in
theorem neg_row (x z : FVec Ideal S64x10000 .f32) (ec er : FVec Ideal S10000x128 .bf16) (X Z : Batch) (Ec Er : Embedding)
    (n : Fin 4096) (j : S64x1.Idx)
    (hx : ∀ k : Fin 10000, x (ix2 (j 0) k) = X (ix2 n k)) (hz : ∀ k : Fin 10000, z (ix2 (j 0) k) = Z (ix2 n k))
    (hec : ∀ (k : Fin 10000) (d : Fin 128), ec (ix2 k d) = Ec (ix2 d k))
    (her : ∀ (k : Fin 10000) (d : Fin 128), er (ix2 k d) = Er (ix2 d k)) :
    k0_pay4 (F := Ideal) x z ec er j = score X Z Ec Er n := by
  obtain ⟨p, q, rfl⟩ : ∃ (p : Fin 64) (q : Fin 1), j = ix2 p q := ⟨j 0, j 1, eq_ix2 j⟩
  obtain rfl : q = 0 := Fin.fin_one_eq_zero q
  have hx' : ∀ k : Fin 10000, x (ix2 p k) = X (ix2 n k) := hx
  have hz' : ∀ k : Fin 10000, z (ix2 p k) = Z (ix2 n k) := hz
  rw [neg_apply]
  unfold score proj
  simp only [hx', hz', hec, her]

end Cert.KernelIdeal.BlockScore

end
-- ==== Proof.ArrayScore.lean ====
/-
  From the grid's blocks to the two output arrays.

  The grid has 64 points; point `t` holds rows `64 t … 64 t + 63` of each batch and both whole transposed tables, and
  writes back rows `64 t … 64 t + 63` of each output column `[4096, 1]`. The tables the region finds were made by the
  host lines before it: a transpose, then a change of format (the identity here), so entry `(k, d)` of a table as the
  region finds it is entry `(d, k)` of the argument. Hence what point `t` writes back is rows `64 t …` of the
  specification's score column, and since the 64 blocks tile the 4096 rows, each output array ends holding the score
  column whole.
-/
import proofs.«116260_j89034672046590_2_alg».proof.Proof.Gen.KernelIdeal.Frame
import proofs.«116260_j89034672046590_2_alg».proof.Proof.BlockScore
import proofs.«116260_j89034672046590_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ArrayScore

open Cert.KernelIdeal Cert.KernelIdeal.Gen Idealize.ShloMosaic.ValueIdx Idealize.ShloMosaic.StableHlo Cert.PairScore

variable (m : (ℓ : Loc nD τ sig) → Buf (Elt Ideal) ℓ) (ρ : Dev nD → PrngReg)

theorem hz : (![0, 0] : Fin 2 → Nat) = fun _ => 0 := funext fun a => by fin_cases a <;> rfl

/-! ## The tables as the region finds them -/

/-- The context table the region stages: the argument transposed (its format changed, which alters nothing). -/
theorem table_context (c : Dev nD) :
    (V m c main_v1 : S10000x128.Idx → EReal)
      = truncf (F := Ideal) .bf16 (transpose S10000x128 [1, 0] (m ((c : Thread nD τ).loc main_arg3) : S128x10000.Idx → EReal) transposes_S128x10000_S10000x128_1_0) bitsLt_bf16_f32 := by
  show StableHlo.after hostOps0 (fun b => m (c, b)) (Proc.devRef .tc main_v1) = _
  after_results

/-- The response table likewise. -/
theorem table_response (c : Dev nD) :
    (V m c main_v3 : S10000x128.Idx → EReal)
      = truncf (F := Ideal) .bf16 (transpose S10000x128 [1, 0] (m ((c : Thread nD τ).loc main_arg4) : S128x10000.Idx → EReal) transposes_S128x10000_S10000x128_1_0) bitsLt_bf16_f32 := by
  show StableHlo.after hostOps0 (fun b => m (c, b)) (Proc.devRef .tc main_v3) = _
  after_results

/-! ## Where each window's block sits -/

/-- The printed index maps over the grid: the batch windows and the output windows are at block row `t`, the table
    windows at block `(0, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of the context batch's block at point `t` is row `n = 64 t + p` of the argument. -/
theorem context_block (c : Dev nD) (t : Fin cfg0.N) (p : Fin 64) (k : Fin 10000) (n : Fin 4096) (hn : n.val = t.val * 64 + p.val) :
    (iblk m c 0 t : Vec Ideal S64x10000 .f32) (ix2 p k) = (m ((c : Thread nD τ).loc main_arg0) : S4096x10000.Idx → EReal) (ix2 n k) := by
  obtain ⟨e0, e1, -⟩ := block_index t
  unfold iblk
  rw [View.read_apply]
  show V m c main_arg0 _ = _
  rw [V_main_arg0]
  refine congrArg _ (funext fun a => Fin.ext ?_)
  match a with
  | ⟨0, _⟩ => show win0_0.index t (0 : Fin 2) * 64 + 1 * p.val = n.val; rw [e0, hn]; omega
  | ⟨1, _⟩ => show win0_0.index t (1 : Fin 2) * 10000 + 1 * k.val = k.val; rw [e1]; omega

/-- The same for the response batch -/
theorem response_block (c : Dev nD) (t : Fin cfg0.N) (p : Fin 64) (k : Fin 10000) (n : Fin 4096) (hn : n.val = t.val * 64 + p.val) :
    (iblk m c 1 t : Vec Ideal S64x10000 .f32) (ix2 p k) = (m ((c : Thread nD τ).loc main_arg1) : S4096x10000.Idx → EReal) (ix2 n k) := by
  obtain ⟨-, -, e0, e1, -⟩ := block_index t
  unfold iblk
  rw [View.read_apply]
  show V m c main_arg1 _ = _
  rw [V_main_arg1]
  refine congrArg _ (funext fun a => Fin.ext ?_)
  match a with
  | ⟨0, _⟩ => show win0_1.index t (0 : Fin 2) * 64 + 1 * p.val = n.val; rw [e0, hn]; omega
  | ⟨1, _⟩ => show win0_1.index t (1 : Fin 2) * 10000 + 1 * k.val = k.val; rw [e1]; omega

/-- and for the negative-response batch. -/
theorem negative_block (c : Dev nD) (t : Fin cfg0.N) (p : Fin 64) (k : Fin 10000) (n : Fin 4096) (hn : n.val = t.val * 64 + p.val) :
    (iblk m c 2 t : Vec Ideal S64x10000 .f32) (ix2 p k) = (m ((c : Thread nD τ).loc main_arg2) : S4096x10000.Idx → EReal) (ix2 n k) := by
  obtain ⟨-, -, -, -, e0, e1, -⟩ := block_index t
  unfold iblk
  rw [View.read_apply]
  show V m c main_arg2 _ = _
  rw [V_main_arg2]
  refine congrArg _ (funext fun a => Fin.ext ?_)
  match a with
  | ⟨0, _⟩ => show win0_2.index t (0 : Fin 2) * 64 + 1 * p.val = n.val; rw [e0, hn]; omega
  | ⟨1, _⟩ => show win0_2.index t (1 : Fin 2) * 10000 + 1 * k.val = k.val; rw [e1]; omega

/-- The context table's block at any point is the whole staged table: entry `(k, d)` is the argument's `(d, k)`. -/
theorem context_table_block (c : Dev nD) (t : Fin cfg0.N) (k : Fin 10000) (d : Fin 128) :
    (iblk m c 3 t : Vec Ideal S10000x128 .bf16) (ix2 k d) = (m ((c : Thread nD τ).loc main_arg3) : S128x10000.Idx → EReal) (ix2 d k) := by
  obtain ⟨-, -, -, -, -, -, e0, e1, -⟩ := block_index t
  unfold iblk
  rw [View.read_apply]
  show V m c main_v1 _ = _
  rw [table_context]
  refine transpose_apply [1, 0] _ transposes_S128x10000_S10000x128_1_0 _ (ix2 d k) (fun b => ?_)
  match b with
  | ⟨0, _⟩ => show k.val = win0_3.index t (0 : Fin 2) * 10000 + 1 * k.val; rw [e0]; omega
  | ⟨1, _⟩ => show d.val = win0_3.index t (1 : Fin 2) * 128 + 1 * d.val; rw [e1]; omega

/-- The response table's block likewise. -/
theorem response_table_block (c : Dev nD) (t : Fin cfg0.N) (k : Fin 10000) (d : Fin 128) :
    (iblk m c 4 t : Vec Ideal S10000x128 .bf16) (ix2 k d) = (m ((c : Thread nD τ).loc main_arg4) : S128x10000.Idx → EReal) (ix2 d k) := by
  obtain ⟨-, -, -, -, -, -, -, -, e0, e1, -⟩ := block_index t
  unfold iblk
  rw [View.read_apply]
  show V m c main_v3 _ = _
  rw [table_response]
  refine transpose_apply [1, 0] _ transposes_S128x10000_S10000x128_1_0 _ (ix2 d k) (fun b => ?_)
  match b with
  | ⟨0, _⟩ => show k.val = win0_4.index t (0 : Fin 2) * 10000 + 1 * k.val; rw [e0]; omega
  | ⟨1, _⟩ => show d.val = win0_4.index t (1 : Fin 2) * 128 + 1 * d.val; rw [e1]; omega

/-! ## The score columns -/

/-- The positive score column `[4096, 1]` of the arguments. -/
def posColumn (c : Dev nD) : S4096x1.Idx → EReal := fun i =>
  score (m ((c : Thread nD τ).loc main_arg0)) (m ((c : Thread nD τ).loc main_arg1))
    (m ((c : Thread nD τ).loc main_arg3)) (m ((c : Thread nD τ).loc main_arg4)) (i 0)

/-- The negative score column. -/
def negColumn (c : Dev nD) : S4096x1.Idx → EReal := fun i =>
  score (m ((c : Thread nD τ).loc main_arg0)) (m ((c : Thread nD τ).loc main_arg2))
    (m ((c : Thread nD τ).loc main_arg3)) (m ((c : Thread nD τ).loc main_arg4)) (i 0)

/-- What point `t` writes back to the first output is rows `64 t …` of the positive score column. -/
theorem flushed_pos (c : Dev nD) (t : Fin cfg0.N) :
    (dats m 0 c).flushed 5 t = ((cfg0.win 5).blk t).view.read (Elt Ideal) (posColumn m c) := by
  show (cfg0.win 5).cut (grid0.coords t) ((dats m 0 c).after 5 t) = _
  rw [after0_5]
  unfold out0_5
  rw [View.canon_unit_zero hz]
  simp only [View.ld_unit_zero (S := S64x10000) hz, View.ld_unit_zero (S := S10000x128) hz]
  obtain ⟨-, -, -, -, -, -, -, -, -, -, e0, -⟩ := block_index t
  funext j
  show k0_pay3 (F := Ideal) (iblk m c 0 t) (iblk m c 1 t) (iblk m c 3 t) (iblk m c 4 t) j = posColumn m c (((cfg0.win 5).blk t).view.emb j)
  have hn : ((((cfg0.win 5).blk t).view.emb j) 0).val = t.val * 64 + (j 0).val := by
    show win0_5.index t (0 : Fin 2) * 64 + 1 * (j 0).val = _
    rw [e0]; omega
  unfold posColumn
  exact BlockScore.pos_row (iblk m c 0 t) (iblk m c 1 t) (iblk m c 3 t) (iblk m c 4 t) _ _ _ _ _ j
    (fun k => context_block m c t (j 0) k _ hn) (fun k => response_block m c t (j 0) k _ hn)
    (fun k d => context_table_block m c t k d) (fun k d => response_table_block m c t k d)

/-- What point `t` writes back to the second output is rows `64 t …` of the negative score column. -/
theorem flushed_neg (c : Dev nD) (t : Fin cfg0.N) :
    (dats m 0 c).flushed 6 t = ((cfg0.win 6).blk t).view.read (Elt Ideal) (negColumn m c) := by
  show (cfg0.win 6).cut (grid0.coords t) ((dats m 0 c).after 6 t) = _
  rw [after0_6]
  unfold out0_6
  rw [View.canon_unit_zero hz]
  simp only [View.ld_unit_zero (S := S64x10000) hz, View.ld_unit_zero (S := S10000x128) hz]
  obtain ⟨-, -, -, -, -, -, -, -, -, -, -, -, e0, -⟩ := block_index t
  funext j
  show k0_pay4 (F := Ideal) (iblk m c 0 t) (iblk m c 2 t) (iblk m c 3 t) (iblk m c 4 t) j = negColumn m c (((cfg0.win 6).blk t).view.emb j)
  have hn : ((((cfg0.win 6).blk t).view.emb j) 0).val = t.val * 64 + (j 0).val := by
    show win0_6.index t (0 : Fin 2) * 64 + 1 * (j 0).val = _
    rw [e0]; omega
  unfold negColumn
  exact BlockScore.neg_row (iblk m c 0 t) (iblk m c 2 t) (iblk m c 3 t) (iblk m c 4 t) _ _ _ _ _ j
    (fun k => context_block m c t (j 0) k _ hn) (fun k => negative_block m c t (j 0) k _ hn)
    (fun k d => context_table_block m c t k d) (fun k d => response_table_block m c t k d)

/-! ## The blocks tile the rows -/

/-- An index of the first output is in point `t`'s block iff each coordinate is in the block's range on its axis. -/
theorem mem_block_pos (t : Fin cfg0.N) (i : S4096x1.Idx) :
    i ∈ ((cfg0.win 5).blk t).view.set ↔ ∀ a : Fin 2, win0_5.index t a * S64x1.size a ≤ (i a).val ∧ (i a).val < win0_5.index t a * S64x1.size a + S64x1.size a := by
  show i ∈ ((View.whole main_v4_0).slice (win0_5.rect t)).set ↔ _
  rw [View.set_slice_whole, Rect.mem_set_unit]
  exact Iff.rfl

theorem mem_block_neg (t : Fin cfg0.N) (i : S4096x1.Idx) :
    i ∈ ((cfg0.win 6).blk t).view.set ↔ ∀ a : Fin 2, win0_6.index t a * S64x1.size a ≤ (i a).val ∧ (i a).val < win0_6.index t a * S64x1.size a + S64x1.size a := by
  show i ∈ ((View.whole main_v4_1).slice (win0_6.rect t)).set ↔ _
  rw [View.set_slice_whole, Rect.mem_set_unit]
  exact Iff.rfl

/-- Row `r` is in the block of point `r / 64`. -/
theorem cover_pos (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 64 := N_0
  refine ⟨⟨(i 0).val / 64, by rw [hN]; omega⟩, flush0_5 _, ?_⟩
  rw [mem_block_pos]
  obtain ⟨-, -, -, -, -, -, -, -, -, -, e0, e1, -⟩ := block_index ⟨(i 0).val / 64, by rw [hN]; omega⟩
  intro a
  match a with
  | ⟨0, _⟩ => show win0_5.index _ (0 : Fin 2) * 64 ≤ (i 0).val ∧ (i 0).val < win0_5.index _ (0 : Fin 2) * 64 + 64; rw [e0]; show (i 0).val / 64 * 64 ≤ _ ∧ _ < (i 0).val / 64 * 64 + 64; omega
  | ⟨1, _⟩ => show win0_5.index _ (1 : Fin 2) * 1 ≤ (i 1).val ∧ (i 1).val < win0_5.index _ (1 : Fin 2) * 1 + 1; rw [e1]; omega

theorem cover_neg (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 64 := N_0
  refine ⟨⟨(i 0).val / 64, by rw [hN]; omega⟩, flush0_6 _, ?_⟩
  rw [mem_block_neg]
  obtain ⟨-, -, -, -, -, -, -, -, -, -, -, -, e0, e1⟩ := block_index ⟨(i 0).val / 64, by rw [hN]; omega⟩
  intro a
  match a with
  | ⟨0, _⟩ => show win0_6.index _ (0 : Fin 2) * 64 ≤ (i 0).val ∧ (i 0).val < win0_6.index _ (0 : Fin 2) * 64 + 64; rw [e0]; show (i 0).val / 64 * 64 ≤ _ ∧ _ < (i 0).val / 64 * 64 + 64; omega
  | ⟨1, _⟩ => show win0_6.index _ (1 : Fin 2) * 1 ≤ (i 1).val ∧ (i 1).val < win0_6.index _ (1 : Fin 2) * 1 + 1; rw [e1]; omega

/-! ## The output arrays after the region -/

/-- The first output array ends holding the positive score column. -/
theorem final_pos (c : Dev nD) : (dats m 0 c).arrAt 5 cfg0.N = posColumn m c :=
  (dats m 0 c).arrAt_eq_of_cover 5 (posColumn m c) (fun t _ => flushed_pos m c t) cover_pos

/-- The second output array ends holding the negative score column. -/
theorem final_neg (c : Dev nD) : (dats m 0 c).arrAt 6 cfg0.N = negColumn m c :=
  (dats m 0 c).arrAt_eq_of_cover 6 (negColumn m c) (fun t _ => flushed_neg m c t) cover_neg

end Cert.KernelIdeal.ArrayScore

end
-- ==== Proof.KernelRun.lean ====
/-
  The kernel program's three results.

  After the region the host lines flatten each output column `[4096, 1]` to a vector `[4096]` (entry `n` of the
  vector is row `n` of the column), and compute the hinge loss from the two vectors. So the program ends with the
  specification's positive scores, its negative scores, and their hinge loss; its argument arrays are unchanged.
-/
import proofs.«116260_j89034672046590_2_alg».proof.Proof.Gen.KernelIdeal.Frame
import proofs.«116260_j89034672046590_2_alg».proof.Proof.ArrayScore
import proofs.«116260_j89034672046590_2_alg».proof.Proof.LibRowLayout
import proofs.«116260_j89034672046590_2_alg».proof.Proof.Spec
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Results

open Cert.KernelIdeal Cert.KernelIdeal.Gen Idealize.ShloMosaic.ValueIdx Idealize.ShloMosaic.StableHlo Cert.PairScore
open Cert.KernelIdeal.ArrayScore

variable (m : (ℓ : Loc nD τ sig) → Buf (Elt Ideal) ℓ) (ρ : Dev nD → PrngReg)

/-- The positive scores of the arguments on core `c`. -/
def posScores (c : Dev nD) : S4096.Idx → EReal :=
  scores (m ((c : Thread nD τ).loc main_arg0)) (m ((c : Thread nD τ).loc main_arg1))
    (m ((c : Thread nD τ).loc main_arg3)) (m ((c : Thread nD τ).loc main_arg4))

/-- The negative scores. -/
def negScores (c : Dev nD) : S4096.Idx → EReal :=
  scores (m ((c : Thread nD τ).loc main_arg0)) (m ((c : Thread nD τ).loc main_arg2))
    (m ((c : Thread nD τ).loc main_arg3)) (m ((c : Thread nD τ).loc main_arg4))

/-- The positive score column flattened is the positive score vector. -/
theorem flat_pos (c : Dev nD) (h : S4096x1.ShapeCasts S4096) : shapeCast S4096 (posColumn m c) h = posScores m c := by
  funext i
  rw [eq_ix1 i]
  exact Cert.RowLayout.castFlat_apply _ h (i 0)

/-- The negative score column flattened is the negative score vector. -/
theorem flat_neg (c : Dev nD) (h : S4096x1.ShapeCasts S4096) : shapeCast S4096 (negColumn m c) h = negScores m c := by
  funext i
  rw [eq_ix1 i]
  exact Cert.RowLayout.castFlat_apply _ h (i 0)

/-- The region leaves the first output array at the positive score column. -/
theorem region_pos (c : Dev nD) :
    Pipeline.withArrays (cfgs 0).spec c (V0 m c) (fun w => (dats m 0 c).arrAt w (cfgs 0).N) (Proc.tc.devRef main_v4_0)
      = posColumn m c :=
  (Pipeline.withArrays_arr spec0 launch0.win.arr_inj c _ _ 5).trans (final_pos m c)

/-- and the second at the negative score column. -/
theorem region_neg (c : Dev nD) :
    Pipeline.withArrays (cfgs 0).spec c (V0 m c) (fun w => (dats m 0 c).arrAt w (cfgs 0).N) (Proc.tc.devRef main_v4_1)
      = negColumn m c :=
  (Pipeline.withArrays_arr spec0 launch0.win.arr_inj c _ _ 6).trans (final_neg m c)

/-- The first result after the host lines that follow the region: the positive scores. -/
theorem result_pos (c : Dev nD) :
    Pipeline.afterTail₀ cfgs (dats m) 0 (V0 m) [hostOps1, hostOps1_1, hostOps1_2] c main_v5 = posScores m c := by
  unfold Pipeline.afterTail₀
  simp only [hostOps1, hostOps1_1, hostOps1_2, List.flatten_cons, List.flatten_nil, List.append_nil, List.cons_append, List.nil_append]
  after_results
  rw [region_pos]
  exact flat_pos m c _

/-- The second result: the negative scores. -/
theorem result_neg (c : Dev nD) :
    Pipeline.afterTail₀ cfgs (dats m) 0 (V0 m) [hostOps1, hostOps1_1, hostOps1_2] c main_v6 = negScores m c := by
  unfold Pipeline.afterTail₀
  simp only [hostOps1, hostOps1_1, hostOps1_2, List.flatten_cons, List.flatten_nil, List.append_nil, List.cons_append, List.nil_append]
  after_results
  rw [region_neg]
  exact flat_neg m c _

/-- The third result: the hinge loss of the two score vectors. -/
theorem result_loss (c : Dev nD) :
    Pipeline.afterTail₀ cfgs (dats m) 0 (V0 m) [hostOps1, hostOps1_1, hostOps1_2] c main_v11
      = hinge bcast_S_S4096 reducesTo_S4096_S_d0 h_S_ (posScores m c) (negScores m c) := by
  unfold Pipeline.afterTail₀
  simp only [hostOps1, hostOps1_1, hostOps1_2, List.flatten_cons, List.flatten_nil, List.append_nil, List.cons_append, List.nil_append]
  after_results
  rw [region_pos, region_neg]
  show hinge bcast_S_S4096 reducesTo_S4096_S_d0 h_S_ (shapeCast S4096 (posColumn m c) shapeCasts_S4096x1_S4096) (shapeCast S4096 (negColumn m c) shapeCasts_S4096x1_S4096) = _
  rw [flat_pos, flat_neg]

/-- THE RUN: every weakly fair execution of the kernel program terminates, with the positive scores, the negative
    scores and their hinge loss in its three results, and its argument arrays as they were. -/
theorem run : θ_run defs (onTc (τ := τ) (main (F := Ideal))) ⟨m, fun _ => 0, ρ⟩ fun r => ∀ c : Dev nD,
      r.2.mem ((c.tc : Thread nD τ).loc main_v5) = posScores m c
      ∧ r.2.mem ((c.tc : Thread nD τ).loc main_v6) = negScores m c
      ∧ r.2.mem ((c.tc : Thread nD τ).loc main_v11) = hinge bcast_S_S4096 reducesTo_S4096_S_d0 h_S_ (posScores m c) (negScores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_pos m c),
     ((h c).2 main_v6 (Pipeline.mem_restRefs_of main_v6 (by decide) (by decide))).trans (result_neg m c),
     ((h c).2 main_v11 (Pipeline.mem_restRefs_of main_v11 (by decide) (by decide))).trans (result_loss m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Results

end
-- ==== Proof.lean ====
/-
  Two programs score pairs of batches against two embedding tables, and both end in the same hinge loss.

  For batches `x, y : [4096, 10000]` and tables `ec, er : [128, 10000]` write `proj x e n d = Σ_k x[n,k] · e[d,k]` and
  `score x y ec er n = Σ_d proj x ec n d · proj y er n d` (Proof/Spec.lean). Both programs return the positive scores
  (context against response), the negative scores (context against negative response), and the hinge loss
  `Σ_n max (f_neg n − f_pos n + 1/2, 0)`.

  The reference multiplies each batch by the transposed table on the host and sums over the features
  (Proof/RefScore.lean: its two vectors are `scores`). The kernel walks 64 blocks of 64 rows; at each it forms the same
  three products on the matrix unit from inputs narrowed to a shorter float format — the identity over the extended
  reals — and sums the 128 lanes (Proof/BlockScore.lean); the 64 blocks tile the 4096 rows, so its two output columns
  are the score columns (Proof/ArrayScore.lean), which the host lines after the region flatten and feed to the same
  hinge (Proof/KernelRun.lean). Nothing is re-associated across an infinity: both sides are literally the same sums
  of the same products, so the inputs' finiteness is never used. The idealization rewrote no operation, so the
  kernel program read over the extended reals is its own idealization.
-/
import proofs.«116260_j89034672046590_2_alg».proof.Defs
import proofs.«116260_j89034672046590_2_alg».proof.Proof.Gen.Kernel
import proofs.«116260_j89034672046590_2_alg».proof.Proof.Gen.Kernel.Skeleton
import proofs.«116260_j89034672046590_2_alg».proof.Proof.Gen.Kernel.Launch
import proofs.«116260_j89034672046590_2_alg».proof.Proof.Gen.Kernel.Points
import proofs.«116260_j89034672046590_2_alg».proof.Proof.Gen.Kernel.Frame
import proofs.«116260_j89034672046590_2_alg».proof.Proof.Gen.KernelIdeal
import proofs.«116260_j89034672046590_2_alg».proof.Proof.Gen.KernelIdeal.Skeleton
import proofs.«116260_j89034672046590_2_alg».proof.Proof.Gen.KernelIdeal.Launch
import proofs.«116260_j89034672046590_2_alg».proof.Proof.Gen.KernelIdeal.Points
import proofs.«116260_j89034672046590_2_alg».proof.Proof.Gen.KernelIdeal.Frame
import proofs.«116260_j89034672046590_2_alg».proof.Proof.Gen.ReferenceIdeal
import proofs.«116260_j89034672046590_2_alg».proof.Proof.Gen.Pre_finite_inputs
import proofs.«116260_j89034672046590_2_alg».proof.Proof.Gen.ReferenceIdeal.Run
import proofs.«116260_j89034672046590_2_alg».proof.Proof.Gen.ReferenceIdeal.Read
import proofs.«116260_j89034672046590_2_alg».proof.Proof.Spec
import proofs.«116260_j89034672046590_2_alg».proof.Proof.RefScore
import proofs.«116260_j89034672046590_2_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- The reference runs and keeps its arguments: its run, the results forgotten. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- The reference's loss is the hinge of its two score vectors: the same composition of host operations, over its own
    witnesses of the shape facts. -/
theorem reference_loss (x0 x1 x2 : FVec Ideal Cert.ReferenceIdeal.S4096x10000 .f32) (x3 x4 : FVec Ideal Cert.ReferenceIdeal.S128x10000 .f32) :
    Cert.ReferenceIdeal.Read.val_main_v14 (F := Ideal) x0 x1 x2 x3 x4
      = Cert.PairScore.hinge Cert.ReferenceIdeal.Facts₀.bcast_S_S4096 Cert.ReferenceIdeal.Facts₀.reducesTo_S4096_S_d0 Cert.ReferenceIdeal.Facts₀.h_S_
          (Cert.ReferenceIdeal.Read.val_main_v7 (F := Ideal) x0 x1 x3 x4) (Cert.ReferenceIdeal.Read.val_main_v9 (F := Ideal) x0 x2 x3 x4) := rfl

/-- From memories that agree on the five arguments both programs end with the same three results: the positive
    scores, the negative scores, and their hinge loss. -/
theorem algebraic : Cert.algebraic_KernelIdeal_ReferenceIdeal := by
  intro m ρ m' ρ' _ hagree
  refine ⟨fun c => Cert.KernelIdeal.Results.posScores m c, fun c => Cert.KernelIdeal.Results.negScores m c,
    fun c => Cert.PairScore.hinge Cert.KernelIdeal.Facts₀.bcast_S_S4096 Cert.KernelIdeal.Facts₀.reducesTo_S4096_S_d0 Cert.KernelIdeal.Facts₀.h_S_
      (Cert.KernelIdeal.Results.posScores m c) (Cert.KernelIdeal.Results.negScores m c),
    Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [Cert.ReferenceIdeal.Read.val_main_v7_eq, Cert.ReferenceIdeal.RefScore.pos_eq, a0, a1, a3, a4]
    rfl
  · rw [Cert.ReferenceIdeal.Read.val_main_v9_eq, Cert.ReferenceIdeal.RefScore.neg_eq, a0, a2, a3, a4]
    rfl
  · rw [Cert.ReferenceIdeal.Read.val_main_v14_eq, reference_loss, Cert.ReferenceIdeal.RefScore.pos_eq,
      Cert.ReferenceIdeal.RefScore.neg_eq, a0, a1, a2, a3, a4]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
